-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x800000 : Shape := ⟨2, ![2, 800000]⟩
abbrev S50000x64 : Shape := ⟨2, ![50000, 64]⟩
abbrev S800000x32 : Shape := ⟨2, ![800000, 32]⟩
abbrev S160x128 : Shape := ⟨2, ![160, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S800000x32 : S_.BroadcastsInDim S800000x32 (![] : Fin 0 → Fin S800000x32.rank)
  reducesTo_S800000x32_S_d0_1 : S800000x32.ReducesTo [0, 1] S_
  bcast_S_S160x128 : S_.BroadcastsInDim S160x128 (![] : Fin 0 → Fin S160x128.rank)
  reducesTo_S160x128_S_d0_1 : S160x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S128x64 .f32) (main_arg6 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x64 .f32 := Host.absf main_arg5
  let main_cst_6 : FVec F S_ .f32 := constant S_ .f32 0x7F800000#32
  let main_v20 : FVec F S128x64 .f32 := broadcastInDim S128x64 ![] bcast_S_S128x64 main_cst_6
  let main_v21 : IVec S128x64 1 := cmpf .olt main_v19 main_v20
  let main_c_7 : IVec S_ 1 := constantI S_ 1 1#1
  let main_v22 : IVec S_ 1 := (fun x v => Host.reduce IntOp.andi x v reducesTo_S128x64_S_d0_1 h_S_) main_v21 main_c_7
  let main_v23 : IVec S_ 1 := andi main_v18 main_v22
  let main_v24 : FVec F S64 .f32 := Host.absf main_arg6
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  main_v28

def fn {F : FTy → Type} [FloatOps F] (main_arg0 : IVec S2x800000 32) (main_arg1 : FVec F S50000x64 .f32) (main_arg2 : FVec F S800000x32 .f32) (main_arg3 : FVec F S160x128 .f32) (main_arg4 : FVec F S128 .f32) (main_arg5 : FVec F S128x64 .f32) (main_arg6 : FVec F S64 .f32) : IVec S_ 1 :=
  let main_v0 : FVec F S50000x64 .f32 := Host.absf main_arg1
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S800000x32 .f32 := Host.absf main_arg2
  let main_cst_0 : FVec F S_ .f32 := constant S_ .f32 0x7F800000#32
  let main_v5 : FVec F S800000x32 .f32 := broadcastInDim S800000x32 ![] bcast_S_S800000x32 main_cst_0
  let main_v6 : IVec S800000x32 1 := cmpf .olt main_v4 main_v5
  let main_c_1 : IVec S_ 1 := constantI S_ 1 1#1
  let main_v7 : IVec S_ 1 := (fun x v => Host.reduce IntOp.andi x v reducesTo_S800000x32_S_d0_1 h_S_) main_v6 main_c_1
  let main_v8 : IVec S_ 1 := andi main_v3 main_v7
  let main_v9 : FVec F S160x128 .f32 := Host.absf main_arg3
  let main_cst_2 : FVec F S_ .f32 := constant S_ .f32 0x7F800000#32
  let main_v10 : FVec F S160x128 .f32 := broadcastInDim S160x128 ![] bcast_S_S160x128 main_cst_2
  let main_v11 : IVec S160x128 1 := cmpf .olt main_v9 main_v10
  let main_c_3 : IVec S_ 1 := constantI S_ 1 1#1
  let main_v12 : IVec S_ 1 := (fun x v => Host.reduce IntOp.andi x v reducesTo_S160x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_v13 main_v16
-- ==== Kernel.lean ====
abbrev S2x800000 : Shape := ⟨2, ![2, 800000]⟩
abbrev S50000x64 : Shape := ⟨2, ![50000, 64]⟩
abbrev S800000x32 : Shape := ⟨2, ![800000, 32]⟩
abbrev S160x128 : Shape := ⟨2, ![160, 128]⟩
abbrev S128 : Shape := ⟨1, ![128]⟩
abbrev S128x64 : Shape := ⟨2, ![128, 64]⟩
abbrev S64 : Shape := ⟨1, ![64]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x64 : Shape := ⟨2, ![800000, 64]⟩
abbrev S800000x128 : Shape := ⟨2, ![800000, 128]⟩
abbrev S1x128 : Shape := ⟨2, ![1, 128]⟩
abbrev S1x64 : Shape := ⟨2, ![1, 64]⟩
abbrev S8000x32 : Shape := ⟨2, ![8000, 32]⟩
abbrev S8000x128 : Shape := ⟨2, ![8000, 128]⟩
abbrev S8000x64 : Shape := ⟨2, ![8000, 64]⟩
abbrev S32x128 : Shape := ⟨2, ![32, 128]⟩
abbrev S128x128 : Shape := ⟨2, ![128, 128]⟩

abbrev nBuf : Space → Nat
  | .hbm => 34
  | .vmem => 10
  | .smem => 0
  | _ => 0

abbrev bufTy : (tb : Table) → Fin (tcTables nBuf tb) → BufTy
  | .hbm, ⟨0, _⟩ => ⟨S2x800000, .i32⟩
  | .hbm, ⟨1, _⟩ => ⟨S50000x64, .f32⟩
  | .hbm, ⟨2, _⟩ => ⟨S800000x32, .f32⟩
  | .hbm, ⟨3, _⟩ => ⟨S160x128, .f32⟩
  | .hbm, ⟨4, _⟩ => ⟨S128, .f32⟩
  | .hbm, ⟨5, _⟩ => ⟨S128x64, .f32⟩
  | .hbm, ⟨6, _⟩ => ⟨S64, .f32⟩
  | .hbm, ⟨7, _⟩ => ⟨S1x800000, .i32⟩
  | .hbm, ⟨8, _⟩ => ⟨S800000, .i32⟩
  | .hbm, ⟨9, _⟩ => ⟨S1x800000, .i32⟩
  | .hbm, ⟨10, _⟩ => ⟨S800000, .i32⟩
  | .hbm, ⟨11, _⟩ => ⟨S_, .i32⟩
  | .hbm, ⟨12, _⟩ => ⟨S800000, .i32⟩
  | .hbm, ⟨13, _⟩ => ⟨S800000, .i1⟩
  | .hbm, ⟨14, _⟩ => ⟨S_, .i32⟩
  | .hbm, ⟨15, _⟩ => ⟨S800000, .i32⟩
  | .hbm, ⟨16, _⟩ => ⟨S800000, .i32⟩
  | .hbm, ⟨17, _⟩ => ⟨S800000, .i32⟩
  | .hbm, ⟨18, _⟩ => ⟨S800000x1, .i32⟩
  | .hbm, ⟨19, _⟩ => ⟨S800000x64, .f32⟩
  | .hbm, ⟨20, _⟩ => ⟨S_, .i32⟩
  | .hbm, ⟨21, _⟩ => ⟨S800000, .i32⟩
  | .hbm, ⟨22, _⟩ => ⟨S800000, .i1⟩
  | .hbm, ⟨23, _⟩ => ⟨S_, .i32⟩
  | .hbm, ⟨24, _⟩ => ⟨S800000, .i32⟩
  | .hbm, ⟨25, _⟩ => ⟨S800000, .i32⟩
  | .hbm, ⟨26, _⟩ => ⟨S800000, .i32⟩
  | .hbm, ⟨27, _⟩ => ⟨S800000x1, .i32⟩
  | .hbm, ⟨28, _⟩ => ⟨S800000x64, .f32⟩
  | .hbm, ⟨29, _⟩ => ⟨S800000x128, .f32⟩
  | .hbm, ⟨30, _⟩ => ⟨S800000x128, .bf16⟩
  | .hbm, ⟨31, _⟩ => ⟨S1x128, .f32⟩
  | .hbm, ⟨32, _⟩ => ⟨S1x64, .f32⟩
  | .hbm, ⟨33, _⟩ => ⟨S800000x64, .f32⟩
  | .local _ .vmem, ⟨0, _⟩ => ⟨S8000x32, .f32⟩
  | .local _ .vmem, ⟨1, _⟩ => ⟨S8000x32, .f32⟩
  | .local _ .vmem, ⟨2, _⟩ => ⟨S8000x128, .bf16⟩
  | .local _ .vmem, ⟨3, _⟩ => ⟨S8000x128, .bf16⟩
  | .local _ .vmem, ⟨4, _⟩ => ⟨S160x128, .f32⟩
  | .local _ .vmem, ⟨5, _⟩ => ⟨S1x128, .f32⟩
  | .local _ .vmem, ⟨6, _⟩ => ⟨S128x64, .f32⟩
  | .local _ .vmem, ⟨7, _⟩ => ⟨S1x64, .f32⟩
  | .local _ .vmem, ⟨8, _⟩ => ⟨S8000x64, .f32⟩
  | .local _ .vmem, ⟨9, _⟩ => ⟨S8000x64, .f32⟩
  | _, _ => ⟨S2x800000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_v4 : Ref sig .tc := ⟨.hbm, 12, rfl⟩
abbrev main_v5 : Ref sig .tc := ⟨.hbm, 13, rfl⟩
abbrev main_c_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_c_1 : Ref sig .tc := ⟨.hbm, 20, rfl⟩
abbrev main_v11 : Ref sig .tc := ⟨.hbm, 21, rfl⟩
abbrev main_v12 : Ref sig .tc := ⟨.hbm, 22, rfl⟩
abbrev main_c_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![100], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8000x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S160x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S8000x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  concatenates_S800000x64_S800000x64_S800000x128_d1 : Shape.Concatenates [S800000x64, S800000x64] S800000x128 1
  bitsLt_bf16_f32 : FTy.bits .bf16 < FTy.bits .f32
  shapeCasts_S128_S1x128 : S128.ShapeCasts S1x128
  shapeCasts_S64_S1x64 : S64.ShapeCasts S1x64
  inb_S8000x32_S8000x32_0_0 : ∀ a, (![0, 0] : Fin 2 → Nat) a + S8000x32.size a ≤ S8000x32.size a
  h_S8000x32 : 0 < S8000x32.numel
  inb_S8000x128_S8000x128_0_0 : ∀ a, (![0, 0] : Fin 2 → Nat) a + S8000x128.size a ≤ S8000x128.size a
  h_S8000x128 : 0 < S8000x128.numel
  shapeCasts_S8000x128_S8000x128 : S8000x128.ShapeCasts S8000x128
  inb_S160x128_S160x128_0_0 : ∀ a, (![0, 0] : Fin 2 → Nat) a + S160x128.size a ≤ S160x128.size a
  h_S160x128 : 0 < S160x128.numel
  slices_S160x128_o0_0_S32x128 : S160x128.Slices ![0, 0] S32x128
  slices_S160x128_o32_0_S128x128 : S160x128.Slices ![32, 0] S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S8000x128 : S1x128.Broadcasts S8000x128
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S8000x64 : S1x64.Broadcasts S8000x64
  inb_S8000x64_S8000x64_0_0 : ∀ a, (![0, 0] : Fin 2 → Nat) a + S8000x64.size a ≤ S8000x64.size a
  h_S8000x64 : 0 < S8000x64.numel
  gather_S50000x64_S800000x1_S800000x64_1_0_n_n_0_1_164_wf : GatherDims.WF S50000x64 S800000x1 S800000x64 [1] [0] [] [0] [] 1 ![1, 64]
  dot_S8000x32_S32x128_S8000x128_1_0_0_1_n_n_wf : DotDims.WF S8000x32 S32x128 S8000x128 [1] [0] [0] [1] [] []
  dot_S8000x128_S128x128_S8000x128_1_0_0_1_n_n_wf : DotDims.WF S8000x128 S128x128 S8000x128 [1] [0] [0] [1] [] []
  dot_S8000x128_S128x64_S8000x64_1_0_0_1_n_n_wf : DotDims.WF S8000x128 S128x64 S8000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x32.size a ≤ S800000x32.size a
  hwx0_0 : ∀ i : grid0.Coords, EltTy.bits .f32 = 32 ∨ (Rect.block (s := S800000x32) S8000x32.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8000x128.size a ≤ S800000x128.size a
  hwx0_1 : ∀ i : grid0.Coords, EltTy.bits .bf16 = 32 ∨ (Rect.block (s := S800000x128) S8000x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S160x128.size a ≤ S160x128.size a
  hwx0_2 : ∀ i : grid0.Coords, EltTy.bits .f32 = 32 ∨ (Rect.block (s := S160x128) S160x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x64.size a ≤ S128x64.size a
  hwx0_4 : ∀ i : grid0.Coords, EltTy.bits .f32 = 32 ∨ (Rect.block (s := S128x64) S128x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S8000x64.size a ≤ S800000x64.size a
  hwx0_6 : ∀ i : grid0.Coords, EltTy.bits .f32 = 32 ∨ (Rect.block (s := S800000x64) S8000x64.size (cc0_transform_6 i) (hinb0_6 i)).WholeWords (EltTy.packing .f32)

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def dot_S8000x32_S32x128_S8000x128_1_0_0_1_n_n : DotDims S8000x32 S32x128 S8000x128 where
  lhsContracting := [1]
  rhsContracting := [0]
  lhsNonContracting := [0]
  rhsNonContracting := [1]
  lhsBatch := []
  rhsBatch := []
  wf := dot_S8000x32_S32x128_S8000x128_1_0_0_1_n_n_wf
def dot_S8000x128_S128x128_S8000x128_1_0_0_1_n_n : DotDims S8000x128 S128x128 S8000x128 where
  lhsContracting := [1]
  rhsContracting := [0]
  lhsNonContracting := [0]
  rhsNonContracting := [1]
  lhsBatch := []
  rhsBatch := []
  wf := dot_S8000x128_S128x128_S8000x128_1_0_0_1_n_n_wf
def dot_S8000x128_S128x64_S8000x64_1_0_0_1_n_n : DotDims S8000x128 S128x64 S8000x64 where
  lhsContracting := [1]
  rhsContracting := [0]
  lhsNonContracting := [0]
  rhsNonContracting := [1]
  lhsBatch := []
  rhsBatch := []
  wf := dot_S8000x128_S128x64_S8000x64_1_0_0_1_n_n_wf

abbrev win0_0 : Pipeline.Window sig grid0 :=
  Pipeline.Window.ofSpec (Memref.whole main_arg2) S8000x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v19) S8000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S160x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v20) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S128x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v21) S1x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v22) S8000x64.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S2x800000 : Shape := ⟨2, ![2, 800000]⟩
abbrev S50000x64 : Shape := ⟨2, ![50000, 64]⟩
abbrev S800000x32 : Shape := ⟨2, ![800000, 32]⟩
abbrev S160x128 : Shape := ⟨2, ![160, 128]⟩
abbrev S128 : Shape := ⟨1, ![128]⟩
abbrev S128x64 : Shape := ⟨2, ![128, 64]⟩
abbrev S64 : Shape := ⟨1, ![64]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x64 : Shape := ⟨2, ![800000, 64]⟩
abbrev S800000x160 : Shape := ⟨2, ![800000, 160]⟩
abbrev S800000x128 : Shape := ⟨2, ![800000, 128]⟩
abbrev S1x128 : Shape := ⟨2, ![1, 128]⟩
abbrev S1x64 : Shape := ⟨2, ![1, 64]⟩

abbrev nBuf : Space → Nat
  | .hbm => 41
  | .vmem => 0
  | .smem => 0
  | _ => 0

abbrev bufTy : (tb : Table) → Fin (tcTables nBuf tb) → BufTy
  | .hbm, ⟨0, _⟩ => ⟨S2x800000, .i32⟩
  | .hbm, ⟨1, _⟩ => ⟨S50000x64, .f32⟩
  | .hbm, ⟨2, _⟩ => ⟨S800000x32, .f32⟩
  | .hbm, ⟨3, _⟩ => ⟨S160x128, .f32⟩
  | .hbm, ⟨4, _⟩ => ⟨S128, .f32⟩
  | .hbm, ⟨5, _⟩ => ⟨S128x64, .f32⟩
  | .hbm, ⟨6, _⟩ => ⟨S64, .f32⟩
  | .hbm, ⟨7, _⟩ => ⟨S1x800000, .i32⟩
  | .hbm, ⟨8, _⟩ => ⟨S800000, .i32⟩
  | .hbm, ⟨9, _⟩ => ⟨S_, .i32⟩
  | .hbm, ⟨10, _⟩ => ⟨S800000, .i32⟩
  | .hbm, ⟨11, _⟩ => ⟨S800000, .i1⟩
  | .hbm, ⟨12, _⟩ => ⟨S_, .i32⟩
  | .hbm, ⟨13, _⟩ => ⟨S800000, .i32⟩
  | .hbm, ⟨14, _⟩ => ⟨S800000, .i32⟩
  | .hbm, ⟨15, _⟩ => ⟨S800000, .i32⟩
  | .hbm, ⟨16, _⟩ => ⟨S800000x1, .i32⟩
  | .hbm, ⟨17, _⟩ => ⟨S800000x64, .f32⟩
  | .hbm, ⟨18, _⟩ => ⟨S1x800000, .i32⟩
  | .hbm, ⟨19, _⟩ => ⟨S800000, .i32⟩
  | .hbm, ⟨20, _⟩ => ⟨S_, .i32⟩
  | .hbm, ⟨21, _⟩ => ⟨S800000, .i32⟩
  | .hbm, ⟨22, _⟩ => ⟨S800000, .i1⟩
  | .hbm, ⟨23, _⟩ => ⟨S_, .i32⟩
  | .hbm, ⟨24, _⟩ => ⟨S800000, .i32⟩
  | .hbm, ⟨25, _⟩ => ⟨S800000, .i32⟩
  | .hbm, ⟨26, _⟩ => ⟨S800000, .i32⟩
  | .hbm, ⟨27, _⟩ => ⟨S800000x1, .i32⟩
  | .hbm, ⟨28, _⟩ => ⟨S800000x64, .f32⟩
  | .hbm, ⟨29, _⟩ => ⟨S800000x160, .f32⟩
  | .hbm, ⟨30, _⟩ => ⟨S800000x128, .f32⟩
  | .hbm, ⟨31, _⟩ => ⟨S1x128, .f32⟩
  | .hbm, ⟨32, _⟩ => ⟨S800000x128, .f32⟩
  | .hbm, ⟨33, _⟩ => ⟨S800000x128, .f32⟩
  | .hbm, ⟨34, _⟩ => ⟨S_, .f32⟩
  | .hbm, ⟨35, _⟩ => ⟨S800000x128, .f32⟩
  | .hbm, ⟨36, _⟩ => ⟨S800000x128, .f32⟩
  | .hbm, ⟨37, _⟩ => ⟨S800000x64, .f32⟩
  | .hbm, ⟨38, _⟩ => ⟨S1x64, .f32⟩
  | .hbm, ⟨39, _⟩ => ⟨S800000x64, .f32⟩
  | .hbm, ⟨40, _⟩ => ⟨S800000x64, .f32⟩
  | _, _ => ⟨S2x800000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_c : Ref sig .tc := ⟨.hbm, 9, rfl⟩
abbrev main_v2 : Ref sig .tc := ⟨.hbm, 10, rfl⟩
abbrev main_v3 : Ref sig .tc := ⟨.hbm, 11, rfl⟩
abbrev main_c_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_c_1 : Ref sig .tc := ⟨.hbm, 20, rfl⟩
abbrev main_v11 : Ref sig .tc := ⟨.hbm, 21, rfl⟩
abbrev main_v12 : Ref sig .tc := ⟨.hbm, 22, rfl⟩
abbrev main_c_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_call0_cst : Ref sig .tc := ⟨.hbm, 34, rfl⟩
abbrev main_call0_v0 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  bcast_S_S800000 : S_.BroadcastsInDim S800000 (![] : Fin 0 → Fin S800000.rank)
  bcast_S800000_S800000x1_0 : S800000.BroadcastsInDim S800000x1 (![0] : Fin 1 → Fin S800000x1.rank)
  slices_S2x800000_S1x800000_1_0 : S2x800000.Slices ![1, 0] S1x800000
  concatenates_S800000x32_S800000x64_S800000x64_S800000x160_d1 : Shape.Concatenates [S800000x32, S800000x64, S800000x64] S800000x160 1
  bcast_S128_S1x128_1 : S128.BroadcastsInDim S1x128 (![1] : Fin 1 → Fin S1x128.rank)
  bcast_S1x128_S800000x128_0_1 : S1x128.BroadcastsInDim S800000x128 (![0, 1] : Fin 2 → Fin S800000x128.rank)
  bcast_S_S800000x128 : S_.BroadcastsInDim S800000x128 (![] : Fin 0 → Fin S800000x128.rank)
  bcast_S64_S1x64_1 : S64.BroadcastsInDim S1x64 (![1] : Fin 1 → Fin S1x64.rank)
  bcast_S1x64_S800000x64_0_1 : S1x64.BroadcastsInDim S800000x64 (![0, 1] : Fin 2 → Fin S800000x64.rank)
  gather_S50000x64_S800000x1_S800000x64_1_0_n_n_0_1_164_wf : GatherDims.WF S50000x64 S800000x1 S800000x64 [1] [0] [] [0] [] 1 ![1, 64]
  dot_S800000x160_S160x128_S800000x128_1_0_0_1_n_n_wf : DotDims.WF S800000x160 S160x128 S800000x128 [1] [0] [0] [1] [] []
  dot_S800000x128_S128x64_S800000x64_1_0_0_1_n_n_wf : DotDims.WF S800000x128 S128x64 S800000x64 [1] [0] [0] [1] [] []

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def dot_S800000x160_S160x128_S800000x128_1_0_0_1_n_n : DotDims S800000x160 S160x128 S800000x128 where
  lhsContracting := [1]
  rhsContracting := [0]
  lhsNonContracting := [0]
  rhsNonContracting := [1]
  lhsBatch := []
  rhsBatch := []
  wf := dot_S800000x160_S160x128_S800000x128_1_0_0_1_n_n_wf
def dot_S800000x128_S128x64_S800000x64_1_0_0_1_n_n : DotDims S800000x128 S128x64 S800000x64 where
  lhsContracting := [1]
  rhsContracting := [0]
  lhsNonContracting := [0]
  rhsNonContracting := [1]
  lhsBatch := []
  rhsBatch := []
  wf := dot_S800000x128_S128x64_S800000x64_1_0_0_1_n_n_wf

class Facts : Prop extends Facts₀ where

variable [Facts]
-- ==== Proof.EdgeMlp.lean ====
/-
  The edge perceptron, as one function of its argument arrays.

  Every edge `e` carries 32 features of its own and the 64 features of its source node followed by the 64 features of
  its target node: 160 input columns, the edge's own in columns 0–31 and the two nodes' in columns 32–159. The first
  layer is the affine map with weights `w1 : [160, 128]` and bias `b1`, followed by the maximum with zero; the second
  is the affine map with weights `w2 : [128, 64]` and bias `b2`:

    hidden(e, k) = max (∑ₐ x(e, a) · w1(a, k) + b1(k)) 0,      out(e, j) = ∑ₖ hidden(e, k) · w2(k, j) + b2(j).

  The sum over the 160 input columns is written here in two parts, the 32 columns of the edge and the 128 of the two
  nodes; that it is the sum over all 160 is `sum_cols`, which only regroups an addition (the extended reals are a
  commutative monoid under +, so nothing has to be finite).
-/
import Idealize.ShloMosaic.PureOps.Ideal
import Idealize.ShloMosaic.Lib.ValueIdx
import Mathlib.Algebra.BigOperators.Fin
open scoped BigOperators
noncomputable section
namespace Cert.EdgeMlp
open Idealize.ShloMosaic Idealize.ShloMosaic.ValueIdx

/-- A matrix of extended reals. -/
abbrev Mat (r c : Nat) : Type := (⟨2, ![r, c]⟩ : Shape).Idx → EReal
/-- A vector of extended reals. -/
abbrev Vect (n : Nat) : Type := (⟨1, ![n]⟩ : Shape).Idx → EReal

/-- Input column of the edge's own feature `a`. -/
def edgeCol (a : Fin 32) : Fin 160 := ⟨a.val, by omega⟩
/-- Input column of feature `a` of the two nodes (source features first, then target features). -/
def nodeCol (a : Fin 128) : Fin 160 := ⟨32 + a.val, by omega⟩

/-- Feature `b` of the two nodes of edge `e`: the source's for `b < 64`, the target's from 64 on. -/
def nodeEntry (src tgt : Mat 800000 64) (e : Fin 800000) (b : Fin 128) : EReal :=
  if h : b.val < 64 then src (ix2 e ⟨b.val, h⟩) else tgt (ix2 e ⟨b.val - 64, by omega⟩)

/-- The source and target features side by side. -/
def nodeCols (src tgt : Mat 800000 64) : Mat 800000 128 := fun i => nodeEntry src tgt (i 0) (i 1)

theorem nodeCols_apply (src tgt : Mat 800000 64) (e : Fin 800000) (b : Fin 128) :
    nodeCols src tgt (ix2 e b) = nodeEntry src tgt e b := rfl

/-- The zero both programs take the maximum with. -/
abbrev zero32 : EReal := Ideal.ofBits .f32 0x00000000#32

/-- Hidden unit `k` of one edge, from the edge's own 32 features `xe` and its two nodes' 128 features `xs`: the input
    sum in its two parts, the bias, the maximum with zero. -/
def rowHidden (xe : Fin 32 → EReal) (xs : Fin 128 → EReal) (w1 : Mat 160 128) (b1 : Fin 128 → EReal) (k : Fin 128) : EReal :=
  max ((∑ a : Fin 32, xe a * w1 (ix2 (edgeCol a) k)) + (∑ a : Fin 128, xs a * w1 (ix2 (nodeCol a) k)) + b1 k) zero32

/-- Output column `j` of one edge. -/
def rowOut (xe : Fin 32 → EReal) (xs : Fin 128 → EReal) (w1 : Mat 160 128) (b1 : Fin 128 → EReal) (w2 : Mat 128 64)
    (b2 : Fin 64 → EReal) (j : Fin 64) : EReal :=
  (∑ k : Fin 128, rowHidden xe xs w1 b1 k * w2 (ix2 k j)) + b2 j

/-- The output of one edge depends on its arguments only through their entries. -/
theorem rowOut_congr {xe xe' : Fin 32 → EReal} {xs xs' : Fin 128 → EReal} {w1 w1' : Mat 160 128} {b1 b1' : Fin 128 → EReal}
    {w2 w2' : Mat 128 64} {b2 b2' : Fin 64 → EReal} (h0 : ∀ a, xe a = xe' a) (h1 : ∀ a, xs a = xs' a) (h2 : w1 = w1')
    (h3 : ∀ k, b1 k = b1' k) (h4 : w2 = w2') (h5 : ∀ j, b2 j = b2' j) (j : Fin 64) :
    rowOut xe xs w1 b1 w2 b2 j = rowOut xe' xs' w1' b1' w2' b2' j := by
  obtain rfl := funext h0
  obtain rfl := funext h1
  obtain rfl := h2
  obtain rfl := funext h3
  obtain rfl := h4
  obtain rfl := funext h5
  rfl

/-- The hidden layer at edge `e` and unit `k`, from the whole arrays. -/
def hiddenAt (ef : Mat 800000 32) (st : Mat 800000 128) (w1 : Mat 160 128) (b1 : Vect 128) (e : Fin 800000) (k : Fin 128) : EReal :=
  rowHidden (fun a => ef (ix2 e a)) (fun a => st (ix2 e a)) w1 (fun k => b1 (ix1 k)) k

theorem hiddenAt_eq (ef : Mat 800000 32) (st : Mat 800000 128) (w1 : Mat 160 128) (b1 : Vect 128) (e : Fin 800000) (k : Fin 128) :
    hiddenAt ef st w1 b1 e k
      = max ((∑ a : Fin 32, ef (ix2 e a) * w1 (ix2 (edgeCol a) k)) + (∑ a : Fin 128, st (ix2 e a) * w1 (ix2 (nodeCol a) k))
          + b1 (ix1 k)) zero32 := rfl

/-- The output at edge `e` and column `j`, from the whole arrays. -/
def outAt (ef : Mat 800000 32) (st : Mat 800000 128) (w1 : Mat 160 128) (b1 : Vect 128) (w2 : Mat 128 64) (b2 : Vect 64)
    (e : Fin 800000) (j : Fin 64) : EReal :=
  rowOut (fun a => ef (ix2 e a)) (fun a => st (ix2 e a)) w1 (fun k => b1 (ix1 k)) w2 (fun j => b2 (ix1 j)) j

theorem outAt_eq (ef : Mat 800000 32) (st : Mat 800000 128) (w1 : Mat 160 128) (b1 : Vect 128) (w2 : Mat 128 64) (b2 : Vect 64)
    (e : Fin 800000) (j : Fin 64) :
    outAt ef st w1 b1 w2 b2 e j = (∑ k : Fin 128, hiddenAt ef st w1 b1 e k * w2 (ix2 k j)) + b2 (ix1 j) := rfl

/-- The whole result, from the edge features, the gathered source and target features, and the parameters. -/
def edgeMlp (ef : Mat 800000 32) (src tgt : Mat 800000 64) (w1 : Mat 160 128) (b1 : Vect 128) (w2 : Mat 128 64) (b2 : Vect 64) :
    Mat 800000 64 :=
  fun i => outAt ef (nodeCols src tgt) w1 b1 w2 b2 (i 0) (i 1)

theorem edgeMlp_apply (ef : Mat 800000 32) (src tgt : Mat 800000 64) (w1 : Mat 160 128) (b1 : Vect 128) (w2 : Mat 128 64)
    (b2 : Vect 64) (e : Fin 800000) (j : Fin 64) :
    edgeMlp ef src tgt w1 b1 w2 b2 (ix2 e j) = outAt ef (nodeCols src tgt) w1 b1 w2 b2 e j := rfl

/-- A sum over the 160 input columns is the sum over the edge's 32 plus the sum over the nodes' 128. -/
theorem sum_cols (f : Fin 160 → EReal) :
    ∑ a : Fin 160, f a = (∑ a : Fin 32, f (edgeCol a)) + ∑ a : Fin 128, f (nodeCol a) :=
  Fin.sum_univ_add (a := 32) (b := 128) (f : Fin (32 + 128) → EReal)

end Cert.EdgeMlp
-- ==== Proof.LibMatmul.lean ====
/-
  A plain matrix product and a two-axis transpose, read at an index.

  For `l : [M, K]` and `r : [K, N]` the contraction with dimension numbers "contract axis 1 of the left operand with
  axis 0 of the right one, no batch axis" has at `(i, j)`, at the ideal values, the sum over `k` of `l(i, k) · r(k, j)`:
  for the matrix unit's product into the zero accumulator and for the host's general dot alike. The contraction's own
  index set has one axis of extent `K`; the sum is re-indexed through the bijection with `Fin K`, and the two operand
  indices at `(i, j)` and `k` are `(i, k)` and `(k, j)` coordinate by coordinate.
  The transpose with permutation `[1, 0]` of `x : [A, B]` has at `(b, a)` the element `x(a, b)`.
-/
import Idealize.ShloMosaic.PureOps.Ideal.Laws
import Idealize.ShloMosaic.Lib.ValueIdx
import Idealize.ShloMosaic.Lib.Pipeline.Value
open scoped BigOperators
noncomputable section
namespace Cert.MatOps
open Idealize.ShloMosaic Idealize.ShloMosaic.ValueIdx

section Plain
variable {M K N : Nat}

/-- The contraction index set of the plain product is `Fin K`. -/
abbrev plainContr (M K N : Nat) : (DotDims.plain M K N).contr.Idx ≃ Fin K :=
  contrEquiv1 (DotDims.plain M K N) K rfl rfl

/-- The left operand's index at output `(i, j)` and contraction coordinate `k` is `(i, k)`. -/
theorem plain_lhsIdx (i : Fin M) (j : Fin N) (k : Fin K) :
    (DotDims.plain M K N).lhsIdx (ix2 i j) ((plainContr M K N).symm k) = ix2 i k := by
  have hk := contrEquiv1_symm_val (DotDims.plain M K N) K rfl rfl k
  funext a
  refine Fin.ext ?_
  match a with
  | ⟨0, _⟩ => rfl
  | ⟨1, _⟩ => exact ((DotDims.plain M K N).lhsIdx_val_of_single rfl (ix2 i j) _).trans hk

/-- The right operand's index at output `(i, j)` and contraction coordinate `k` is `(k, j)`. -/
theorem plain_rhsIdx (i : Fin M) (j : Fin N) (k : Fin K) :
    (DotDims.plain M K N).rhsIdx (ix2 i j) ((plainContr M K N).symm k) = ix2 k j := by
  have hk := contrEquiv1_symm_val (DotDims.plain M K N) K rfl rfl k
  funext a
  refine Fin.ext ?_
  match a with
  | ⟨0, _⟩ => exact ((DotDims.plain M K N).rhsIdx_val_of_single rfl (ix2 i j) _).trans hk
  | ⟨1, _⟩ => rfl

/-- The contraction's sum over its own index set is the sum over `k : Fin K` of the products at `(i, k)`, `(k, j)`. -/
theorem plain_sum (l : (⟨2, ![M, K]⟩ : Shape).Idx → EReal) (r : (⟨2, ![K, N]⟩ : Shape).Idx → EReal) (i : Fin M) (j : Fin N) :
    ∑ q : (DotDims.plain M K N).contr.Idx, l ((DotDims.plain M K N).lhsIdx (ix2 i j) q) * r ((DotDims.plain M K N).rhsIdx (ix2 i j) q)
      = ∑ k : Fin K, l (ix2 i k) * r (ix2 k j) := by
  rw [← Equiv.sum_comp (plainContr M K N).symm]
  refine Finset.sum_congr rfl fun k _ => ?_
  rw [plain_lhsIdx, plain_rhsIdx]

end Plain

theorem matmul_plain_zero_apply {M K N : Nat} {φ₁ φ₂ : FTy} (prec : Option ContractPrecision) (l : FVec Ideal ⟨2, ![M, K]⟩ φ₁) (r : FVec Ideal ⟨2, ![K, N]⟩ φ₂) (i : Fin M) (j : Fin N) :
    matmul (F := Ideal) (DotDims.plain M K N) prec l r (constant ⟨2, ![M, N]⟩ .f32 0x00000000#32) (ix2 i j) = ∑ k : Fin K, l (ix2 i k) * r (ix2 k j) := by
  simp only [matmul]
  rw [Ideal.matmul_constant_zero_apply]
  exact plain_sum l r i j

theorem dotGeneral_plain_apply {M K N : Nat} {φ₁ φ₂ : FTy} (prec : Option ContractPrecision) (l : FVec Ideal ⟨2, ![M, K]⟩ φ₁) (r : FVec Ideal ⟨2, ![K, N]⟩ φ₂) (i : Fin M) (j : Fin N) :
    Host.dotGeneral (F := Ideal) (DotDims.plain M K N) prec l r (ix2 i j) = ∑ k : Fin K, l (ix2 i k) * r (ix2 k j) := by
  simp only [Host.dotGeneral]
  rw [Ideal.dotGeneral_apply]
  exact plain_sum l r i j

theorem transpose10_apply {α : Type} {A B : Nat} (x : (⟨2, ![A, B]⟩ : Shape).Idx → α) (h : (⟨2, ![A, B]⟩ : Shape).Transposes [1, 0] ⟨2, ![B, A]⟩) (b : Fin B) (a : Fin A) :
    transpose ⟨2, ![B, A]⟩ [1, 0] x h (ix2 b a) = x (ix2 a b) :=
  transpose_apply [1, 0] x h (ix2 b a) (ix2 a b) (fun c => match c with
    | ⟨0, _⟩ => rfl
    | ⟨1, _⟩ => rfl)
end Cert.MatOps
-- ==== Proof.BodyMlp.lean ====
/-
  What the kernel's body computes, entry by entry.

  At one grid point the body holds a block of 8000 edges: their own features `x0 : [8000, 32]`, their two nodes'
  features `x1 : [8000, 128]`, and the whole parameters `x2 = w1`, `x3 = b1` as a row, `x4 = w2`, `x5 = b2` as a row.
  It multiplies `x0` by the first 32 rows of `w1` and `x1` by the remaining 128 rows, adds the two products and the
  bias row, takes the maximum with zero, multiplies by `w2` and adds the second bias row. Each product is taken into a
  zero accumulator, so at the ideal values it is the plain sum over the contracted axis; the changes of format are
  the identity there. Hence row `p`, column `q` of the body's result is `EdgeMlp.rowOut` of row `p` of `x0` and `x1`.
-/
import proofs.«147328_j29085518529107_2_alg».proof.Proof.Gen.KernelIdeal.Skeleton
import proofs.«147328_j29085518529107_2_alg».proof.Proof.EdgeMlp
import proofs.«147328_j29085518529107_2_alg».proof.Proof.LibMatmul
import Idealize.ShloMosaic.Lib.ValueLayout
import Idealize.ShloMosaic.Lib.Pipeline.Value
import Idealize.ShloMosaic.Lib.ValueIdx
open scoped BigOperators
noncomputable section
namespace Cert.KernelIdeal.Body
open Cert.KernelIdeal Cert.KernelIdeal.Gen Idealize.ShloMosaic Idealize.ShloMosaic.ValueIdx Cert.EdgeMlp

/-- The block of edge features times rows 0–31 of `w1`. -/
theorem edge_part (x0 : FVec Ideal S8000x32 .f32) (x2 : FVec Ideal S160x128 .f32) (p : Fin 8000) (k : Fin 128) :
    matmul (F := Ideal) dot_S8000x32_S32x128_S8000x128_1_0_0_1_n_n none (truncf .bf16 x0 bitsLt_bf16_f32)
      (extractStridedSlice S32x128 ![0, 0] (truncf .bf16 x2 bitsLt_bf16_f32) slices_S160x128_o0_0_S32x128)
      (constant S8000x128 .f32 0x00000000#32) (ix2 p k)
    = ∑ a : Fin 32, x0 (ix2 p a) * x2 (ix2 (edgeCol a) k) := by
  refine (Cert.MatOps.matmul_plain_zero_apply (M := 8000) (K := 32) (N := 128) none _ _ p k).trans ?_
  refine Finset.sum_congr rfl fun a _ => ?_
  refine congrArg (x0 (ix2 p a) * ·) ?_
  exact slice2_axis0_apply 0 _ _ a k (edgeCol a) (by show a.val = 0 + a.val; omega)

/-- The block of node features times rows 32–159 of `w1`. -/
theorem node_part (x1 : FVec Ideal S8000x128 .bf16) (x2 : FVec Ideal S160x128 .f32) (p : Fin 8000) (k : Fin 128) :
    matmul (F := Ideal) dot_S8000x128_S128x128_S8000x128_1_0_0_1_n_n none (shapeCast S8000x128 x1 shapeCasts_S8000x128_S8000x128)
      (extractStridedSlice S128x128 ![32, 0] (truncf .bf16 x2 bitsLt_bf16_f32) slices_S160x128_o32_0_S128x128)
      (constant S8000x128 .f32 0x00000000#32) (ix2 p k)
    = ∑ a : Fin 128, x1 (ix2 p a) * x2 (ix2 (nodeCol a) k) := by
  rw [shapeCast_self]
  refine (Cert.MatOps.matmul_plain_zero_apply (M := 8000) (K := 128) (N := 128) none _ _ p k).trans ?_
  refine Finset.sum_congr rfl fun a _ => ?_
  refine congrArg (x1 (ix2 p a) * ·) ?_
  exact slice2_axis0_apply 32 _ _ a k (nodeCol a) rfl

/-- The first bias row spread over the block's rows. -/
theorem bias128 (x3 : FVec Ideal S1x128 .f32) (p : Fin 8000) (k : Fin 128) :
    broadcastTo S8000x128 (shapeCast S1x128 x3 shapeCasts_S1x128_S1x128) broadcasts_S1x128_S8000x128 (ix2 p k)
      = x3 (ix2 (0 : Fin 1) k) := by
  rw [shapeCast_self]
  exact broadcastTo_1b_ab_apply x3 _ p k

/-- The second bias row spread over the block's rows. -/
theorem bias64 (x5 : FVec Ideal S1x64 .f32) (p : Fin 8000) (q : Fin 64) :
    broadcastTo S8000x64 (shapeCast S1x64 x5 shapeCasts_S1x64_S1x64) broadcasts_S1x64_S8000x64 (ix2 p q)
      = x5 (ix2 (0 : Fin 1) q) := by
  rw [shapeCast_self]
  exact broadcastTo_1b_ab_apply x5 _ p q

/-- The hidden block times `w2`. -/
theorem second_layer (h : FVec Ideal S8000x128 .f32) (x4 : FVec Ideal S128x64 .f32) (p : Fin 8000) (q : Fin 64) :
    matmul (F := Ideal) dot_S8000x128_S128x64_S8000x64_1_0_0_1_n_n none (truncf .bf16 h bitsLt_bf16_f32)
      (truncf .bf16 x4 bitsLt_bf16_f32) (constant S8000x64 .f32 0x00000000#32) (ix2 p q)
    = ∑ k : Fin 128, h (ix2 p k) * x4 (ix2 k q) :=
  Cert.MatOps.matmul_plain_zero_apply (M := 8000) (K := 128) (N := 64) none _ _ p q

/-- Row `p`, column `q` of what the body stores is the perceptron's output for the edge in row `p` of the block. -/
theorem pay_apply (x0 : FVec Ideal S8000x32 .f32) (x1 : FVec Ideal S8000x128 .bf16) (x2 : FVec Ideal S160x128 .f32)
    (x3 : FVec Ideal S1x128 .f32) (x4 : FVec Ideal S128x64 .f32) (x5 : FVec Ideal S1x64 .f32) (p : Fin 8000) (q : Fin 64) :
    k0_pay1 (F := Ideal) x0 x1 x2 x3 x4 x5 (ix2 p q)
      = rowOut (fun a => x0 (ix2 p a)) (fun a => x1 (ix2 p a)) x2 (fun k => x3 (ix2 (0 : Fin 1) k)) x4
          (fun j => x5 (ix2 (0 : Fin 1) j)) q := by
  unfold k0_pay1 rowOut rowHidden
  refine (congrArg₂ (· + ·) (second_layer _ x4 p q) (bias64 x5 p q)).trans ?_
  refine congrArg (· + x5 (ix2 (0 : Fin 1) q)) (Finset.sum_congr rfl fun k _ => congrArg (· * x4 (ix2 k q)) ?_)
  exact congrArg₂ max (congrArg₂ (· + ·) (congrArg₂ (· + ·) (edge_part x0 x2 p k) (node_part x1 x2 p k)) (bias128 x3 p k)) rfl

end Cert.KernelIdeal.Body
-- ==== Proof.LibConcatCols.lean ====
/-
  Matrices laid side by side, read at an entry.

  Two or three matrices with the same number of rows, joined along the column axis, form one matrix. Its entry at row
  `a` and column `j` belongs to the piece whose span of columns holds `j`, and is that piece's entry at row `a` and at the
  column `j` less the widths of the pieces before it.
-/
import Idealize.ShloMosaic.Lib.ValueIdx
import Idealize.ShloMosaic.Lib.Pipeline.Value
noncomputable section
namespace Cert.ConcatCols
open Idealize.ShloMosaic Idealize.ShloMosaic.ValueIdx

variable {α : Type} {A B0 B1 B2 T : Nat}

/-- Two pieces: a column inside the first piece's width reads the first piece at that column. -/
theorem pair_left (x0 : (⟨2, ![A, B0]⟩ : Shape).Idx → α) (x1 : (⟨2, ![A, B1]⟩ : Shape).Idx → α)
    (h : Shape.Concatenates [⟨2, ![A, B0]⟩, ⟨2, ![A, B1]⟩] ⟨2, ![A, T]⟩ 1) (a : Fin A) (b : Fin B0) (j : Fin T)
    (hj : j.val = b.val) :
    concatenate ⟨2, ![A, T]⟩ 1 [⟨⟨2, ![A, B0]⟩, x0⟩, ⟨⟨2, ![A, B1]⟩, x1⟩] h (ix2 a j) = x0 (ix2 a b) :=
  concatenate_pair_apply_left 1 x0 x1 h (ix2 a j) rfl (ix2 a b) (fun c => match c with
    | ⟨0, _⟩ => rfl
    | ⟨1, _⟩ => hj.symm)

/-- Two pieces: a column past the first piece's width reads the second piece at the column less that width. -/
theorem pair_right (x0 : (⟨2, ![A, B0]⟩ : Shape).Idx → α) (x1 : (⟨2, ![A, B1]⟩ : Shape).Idx → α)
    (h : Shape.Concatenates [⟨2, ![A, B0]⟩, ⟨2, ![A, B1]⟩] ⟨2, ![A, T]⟩ 1) (a : Fin A) (b : Fin B1) (j : Fin T)
    (hj : j.val = B0 + b.val) :
    concatenate ⟨2, ![A, T]⟩ 1 [⟨⟨2, ![A, B0]⟩, x0⟩, ⟨⟨2, ![A, B1]⟩, x1⟩] h (ix2 a j) = x1 (ix2 a b) :=
  concatenate_pair_apply_right 1 x0 x1 h (ix2 a j) rfl rfl (ix2 a b) (fun c hc => match c, hc with
    | ⟨0, _⟩, _ => rfl
    | ⟨1, _⟩, hc => absurd rfl hc)
    (by show b.val + B0 = j.val; omega)

/-- Three pieces: a column inside the first piece's width reads the first piece at that column. -/
theorem triple_fst (x0 : (⟨2, ![A, B0]⟩ : Shape).Idx → α) (x1 : (⟨2, ![A, B1]⟩ : Shape).Idx → α)
    (x2 : (⟨2, ![A, B2]⟩ : Shape).Idx → α)
    (h : Shape.Concatenates [⟨2, ![A, B0]⟩, ⟨2, ![A, B1]⟩, ⟨2, ![A, B2]⟩] ⟨2, ![A, T]⟩ 1) (a : Fin A) (b : Fin B0) (j : Fin T)
    (hj : j.val = b.val) :
    concatenate ⟨2, ![A, T]⟩ 1 [⟨⟨2, ![A, B0]⟩, x0⟩, ⟨⟨2, ![A, B1]⟩, x1⟩, ⟨⟨2, ![A, B2]⟩, x2⟩] h (ix2 a j) = x0 (ix2 a b) :=
  concatenate_apply_piece (t := ⟨2, ![A, T]⟩) 1 [⟨⟨2, ![A, B0]⟩, x0⟩, ⟨⟨2, ![A, B1]⟩, x1⟩, ⟨⟨2, ![A, B2]⟩, x2⟩] h (ix2 a j) 0 (by show 0 < 3; omega) ⟨2, ![A, B0]⟩ x0 rfl rfl 0 rfl (ix2 a b)
    (fun c hc => match c, hc with
      | ⟨0, _⟩, _ => rfl
      | ⟨1, _⟩, hc => absurd rfl hc)
    (by show 0 + b.val = j.val; omega)

/-- Three pieces: a column in the second piece's span reads the second piece at the column less the first width. -/
theorem triple_snd (x0 : (⟨2, ![A, B0]⟩ : Shape).Idx → α) (x1 : (⟨2, ![A, B1]⟩ : Shape).Idx → α)
    (x2 : (⟨2, ![A, B2]⟩ : Shape).Idx → α)
    (h : Shape.Concatenates [⟨2, ![A, B0]⟩, ⟨2, ![A, B1]⟩, ⟨2, ![A, B2]⟩] ⟨2, ![A, T]⟩ 1) (a : Fin A) (b : Fin B1) (j : Fin T)
    (hj : j.val = B0 + b.val) :
    concatenate ⟨2, ![A, T]⟩ 1 [⟨⟨2, ![A, B0]⟩, x0⟩, ⟨⟨2, ![A, B1]⟩, x1⟩, ⟨⟨2, ![A, B2]⟩, x2⟩] h (ix2 a j) = x1 (ix2 a b) :=
  concatenate_apply_piece (t := ⟨2, ![A, T]⟩) 1 [⟨⟨2, ![A, B0]⟩, x0⟩, ⟨⟨2, ![A, B1]⟩, x1⟩, ⟨⟨2, ![A, B2]⟩, x2⟩] h (ix2 a j) 1 (by show 1 < 3; omega) ⟨2, ![A, B1]⟩ x1 rfl rfl B0 rfl (ix2 a b)
    (fun c hc => match c, hc with
      | ⟨0, _⟩, _ => rfl
      | ⟨1, _⟩, hc => absurd rfl hc)
    (by show B0 + b.val = j.val; omega)

/-- Three pieces: a column in the third piece's span reads the third piece at the column less the first two widths. -/
theorem triple_thd (x0 : (⟨2, ![A, B0]⟩ : Shape).Idx → α) (x1 : (⟨2, ![A, B1]⟩ : Shape).Idx → α)
    (x2 : (⟨2, ![A, B2]⟩ : Shape).Idx → α)
    (h : Shape.Concatenates [⟨2, ![A, B0]⟩, ⟨2, ![A, B1]⟩, ⟨2, ![A, B2]⟩] ⟨2, ![A, T]⟩ 1) (a : Fin A) (b : Fin B2) (j : Fin T)
    (hj : j.val = B0 + B1 + b.val) :
    concatenate ⟨2, ![A, T]⟩ 1 [⟨⟨2, ![A, B0]⟩, x0⟩, ⟨⟨2, ![A, B1]⟩, x1⟩, ⟨⟨2, ![A, B2]⟩, x2⟩] h (ix2 a j) = x2 (ix2 a b) :=
  concatenate_apply_piece (t := ⟨2, ![A, T]⟩) 1 [⟨⟨2, ![A, B0]⟩, x0⟩, ⟨⟨2, ![A, B1]⟩, x1⟩, ⟨⟨2, ![A, B2]⟩, x2⟩] h (ix2 a j) 2 (by show 2 < 3; omega) ⟨2, ![A, B2]⟩ x2 rfl rfl (B0 + B1) rfl (ix2 a b)
    (fun c hc => match c, hc with
      | ⟨0, _⟩, _ => rfl
      | ⟨1, _⟩, hc => absurd rfl hc)
    (by show B0 + B1 + b.val = j.val; omega)

end Cert.ConcatCols
-- ==== Proof.HostPrefix.lean ====
/-
  What the kernel's region finds in the arrays the host prepares.

  Before the region the host takes row 0 of the edge list as the source index of every edge and row 1 as the target
  index (a negative index wrapped around by the number of nodes), gathers the two nodes' feature rows, lays the source's
  64 features and the target's 64 side by side, and changes the format (the identity at the ideal values); and it
  views each bias vector as a one-row matrix. So entry `(e, b)` of the node-feature array is the source's feature `b`
  for `b < 64` and the target's feature `b - 64` after, and entry `(0, k)` of a bias row is entry `k` of the vector.
  The two gathers are kept as they are written: the reference performs the same two, and nothing here depends on
  which rows they pick.
-/
import proofs.«147328_j29085518529107_2_alg».proof.Proof.Gen.KernelIdeal.Frame
import proofs.«147328_j29085518529107_2_alg».proof.Proof.EdgeMlp
import proofs.«147328_j29085518529107_2_alg».proof.Proof.LibConcatCols
import Idealize.ShloMosaic.Lib.StableHlo.Run
import Idealize.ShloMosaic.Lib.ValueLayout
noncomputable section
namespace Cert.KernelIdeal.HostPrefix
open Cert.KernelIdeal Cert.KernelIdeal.Gen Idealize.ShloMosaic Idealize.ShloMosaic.TcCoe Idealize.SL.Sem
open Idealize.ShloMosaic.StableHlo Idealize.ShloMosaic.ValueIdx Cert.EdgeMlp

/-- The feature rows of the edges' source nodes, gathered from the node table `x1` by row 0 of the edge list `x0`. -/
def srcFeat (x0 : (⟨S2x800000, .i32⟩ : BufTy).Contents (Elt Ideal)) (x1 : (⟨S50000x64, .f32⟩ : BufTy).Contents (Elt Ideal)) :
    (⟨S800000x64, .f32⟩ : BufTy).Contents (Elt Ideal) :=
  Host.gather gather_S50000x64_S800000x1_S800000x64_1_0_n_n_0_1_164 x1 (broadcastInDim S800000x1 ![0] bcast_S800000_S800000x1_0 (select (cmpi .slt (shapeCast _ (extractStridedSlice S1x800000 ![0, 0] x0 slices_S2x800000_S1x800000_0_0) shapeCasts_S1x800000_S800000) (broadcastInDim S800000 ![] bcast_S_S800000 (constantI S_ 32 0#32))) (addi (shapeCast _ (extractStridedSlice S1x800000 ![0, 0] x0 slices_S2x800000_S1x800000_0_0) shapeCasts_S1x800000_S800000) (broadcastInDim S800000 ![] bcast_S_S800000 (constantI S_ 32 50000#32))) (shapeCast _ (extractStridedSlice S1x800000 ![0, 0] x0 slices_S2x800000_S1x800000_0_0) shapeCasts_S1x800000_S800000)))

/-- The feature rows of the edges' target nodes, gathered by row 1 of the edge list. -/
def tgtFeat (x0 : (⟨S2x800000, .i32⟩ : BufTy).Contents (Elt Ideal)) (x1 : (⟨S50000x64, .f32⟩ : BufTy).Contents (Elt Ideal)) :
    (⟨S800000x64, .f32⟩ : BufTy).Contents (Elt Ideal) :=
  Host.gather gather_S50000x64_S800000x1_S800000x64_1_0_n_n_0_1_164 x1 (broadcastInDim S800000x1 ![0] bcast_S800000_S800000x1_0 (select (cmpi .slt (shapeCast _ (extractStridedSlice S1x800000 ![1, 0] x0 slices_S2x800000_S1x800000_1_0) shapeCasts_S1x800000_S800000) (broadcastInDim S800000 ![] bcast_S_S800000 (constantI S_ 32 0#32))) (addi (shapeCast _ (extractStridedSlice S1x800000 ![1, 0] x0 slices_S2x800000_S1x800000_1_0) shapeCasts_S1x800000_S800000) (broadcastInDim S800000 ![] bcast_S_S800000 (constantI S_ 32 50000#32))) (shapeCast _ (extractStridedSlice S1x800000 ![1, 0] x0 slices_S2x800000_S1x800000_1_0) shapeCasts_S1x800000_S800000)))

variable (m : (ℓ : Loc nD τ sig) → Buf (Elt Ideal) ℓ)

set_option maxHeartbeats 2000000 in
/-- The node-feature array as the region finds it: the two gathered arrays side by side. -/
theorem nodes_eq (c : Dev nD) :
    (V m c main_v19 : S800000x128.Idx → EReal)
      = truncf (F := Ideal) .bf16 (concatenate S800000x128 1 [⟨S800000x64, srcFeat (m ((c : Thread nD τ).loc main_arg0)) (m ((c : Thread nD τ).loc main_arg1))⟩, ⟨S800000x64, tgtFeat (m ((c : Thread nD τ).loc main_arg0)) (m ((c : Thread nD τ).loc main_arg1))⟩] concatenates_S800000x64_S800000x64_S800000x128_d1) bitsLt_bf16_f32 := by
  dsimp only [Gen.V, Gen.hostOps0]; after_results; rfl

/-- Its entry for edge `e` and feature `b`. -/
theorem nodes_apply (c : Dev nD) (e : Fin 800000) (b : Fin 128) :
    V m c main_v19 (ix2 e b) = nodeEntry (srcFeat (m ((c : Thread nD τ).loc main_arg0)) (m ((c : Thread nD τ).loc main_arg1))) (tgtFeat (m ((c : Thread nD τ).loc main_arg0)) (m ((c : Thread nD τ).loc main_arg1))) e b := by
  refine (congrFun (nodes_eq m c) (ix2 e b)).trans ?_
  show concatenate S800000x128 1 [⟨S800000x64, srcFeat (m ((c : Thread nD τ).loc main_arg0)) (m ((c : Thread nD τ).loc main_arg1))⟩, ⟨S800000x64, tgtFeat (m ((c : Thread nD τ).loc main_arg0)) (m ((c : Thread nD τ).loc main_arg1))⟩] concatenates_S800000x64_S800000x64_S800000x128_d1 (ix2 e b) = _
  unfold nodeEntry
  by_cases h : b.val < 64
  · rw [dif_pos h]
    exact Cert.ConcatCols.pair_left _ _ _ e ⟨b.val, h⟩ b rfl
  · rw [dif_neg h]
    exact Cert.ConcatCols.pair_right _ _ _ e ⟨b.val - 64, by omega⟩ b (by show b.val = 64 + (b.val - 64); omega)

/-- The first bias as the region finds it: the vector viewed as one row. -/
theorem bias1_eq (c : Dev nD) :
    (V m c main_v20 : S1x128.Idx → EReal) = shapeCast S1x128 (m ((c : Thread nD τ).loc main_arg4)) shapeCasts_S128_S1x128 := by
  dsimp only [Gen.V, Gen.hostOps0]; after_results; rfl

theorem bias1_apply (c : Dev nD) (k : Fin 128) : V m c main_v20 (ix2 (0 : Fin 1) k) = (m ((c : Thread nD τ).loc main_arg4)) (ix1 k) :=
  (congrFun (bias1_eq m c) (ix2 (0 : Fin 1) k)).trans (shapeCast_a_1a_apply _ _ (0 : Fin 1) k)

/-- The second bias as the region finds it. -/
theorem bias2_eq (c : Dev nD) :
    (V m c main_v21 : S1x64.Idx → EReal) = shapeCast S1x64 (m ((c : Thread nD τ).loc main_arg6)) shapeCasts_S64_S1x64 := by
  dsimp only [Gen.V, Gen.hostOps0]; after_results; rfl

theorem bias2_apply (c : Dev nD) (j : Fin 64) : V m c main_v21 (ix2 (0 : Fin 1) j) = (m ((c : Thread nD τ).loc main_arg6)) (ix1 j) :=
  (congrFun (bias2_eq m c) (ix2 (0 : Fin 1) j)).trans (shapeCast_a_1a_apply _ _ (0 : Fin 1) j)

end Cert.KernelIdeal.HostPrefix
-- ==== Proof.KernelIsMlp.lean ====
/-
  The kernel computes the edge perceptron.

  The grid has 100 points; point `t` works on edges `8000 t … 8000 t + 7999`: it reads that block of rows of the edge
  features and of the node features, the whole of `w1`, `w2` and the two bias rows, and writes that block of rows of the
  result. Row `p` of a block at point `t` is row `8000 t + p` of the array, so what point `t` writes back is block `t` of
  `EdgeMlp.edgeMlp` of the arrays (`flushed_eq`, from the body's value `Body.pay_apply`); every row lies in the block of
  the point `row / 8000` (`cover`), so the result array ends as that function everywhere (`final`), and the kernel's run
  is restated with it (`run`).
-/
import proofs.«147328_j29085518529107_2_alg».proof.Proof.Gen.KernelIdeal.Value
import proofs.«147328_j29085518529107_2_alg».proof.Proof.BodyMlp
import proofs.«147328_j29085518529107_2_alg».proof.Proof.HostPrefix
noncomputable section
namespace Cert.KernelIdeal.WholeValue
open Cert.KernelIdeal Cert.KernelIdeal.Gen Idealize.ShloMosaic Idealize.ShloMosaic.TcCoe Idealize.SL.Sem
open Idealize.ShloMosaic.ValueIdx Cert.EdgeMlp Cert.KernelIdeal.HostPrefix
open Idealize.ShloMosaic.Pipeline (Dat)

variable (m : (ℓ : Loc nD τ sig) → Buf (Elt Ideal) ℓ) (ρ : Dev nD → PrngReg)

theorem origin : (![0, 0] : Fin 2 → Nat) = fun _ => 0 := funext fun a => by fin_cases a <;> rfl

/-- The result array of the kernel: the edge perceptron of the argument arrays and the two gathered arrays. -/
abbrev result (c : Dev nD) : S800000x64.Idx → EReal :=
  edgeMlp (m ((c : Thread nD τ).loc main_arg2)) (srcFeat (m ((c : Thread nD τ).loc main_arg0)) (m ((c : Thread nD τ).loc main_arg1))) (tgtFeat (m ((c : Thread nD τ).loc main_arg0)) (m ((c : Thread nD τ).loc main_arg1))) (m ((c : Thread nD τ).loc main_arg3)) (m ((c : Thread nD τ).loc main_arg4)) (m ((c : Thread nD τ).loc main_arg5)) (m ((c : Thread nD τ).loc main_arg6))

/-- The block index maps, decided over the 100 points: the edge, node and result windows are at row block `t`,
    the parameters at the only block there is. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

theorem point_lt (t : Fin cfg0.N) : t.val < 100 := lt_of_lt_of_eq t.isLt N_0

/-- Row `p` of the block at point `t` is this row of the arrays. -/
def row (t : Fin cfg0.N) (p : Fin 8000) : Fin 800000 := ⟨t.val * 8000 + p.val, by have := point_lt t; omega⟩

/-- The edge-feature block at point `t`. -/
theorem edge_blk (c : Dev nD) (t : Fin cfg0.N) (p : Fin 8000) (a : Fin 32) :
    iblk m c 0 t (ix2 p a) = (m ((c : Thread nD τ).loc main_arg2)) (ix2 (row t p) a) := by
  show V m c main_arg2 (((cfg0.win 0).blk t).view.emb (ix2 p a)) = _
  rw [V_main_arg2]
  obtain ⟨e0, e1, -⟩ := idx_facts t
  refine congrArg (m ((c : Thread nD τ).loc main_arg2)) (funext fun ax => Fin.ext ?_)
  match ax with
  | ⟨0, _⟩ => show win0_0.index t (0 : Fin 2) * 8000 + 1 * p.val = t.val * 8000 + p.val; rw [e0]; omega
  | ⟨1, _⟩ => show win0_0.index t (1 : Fin 2) * 32 + 1 * a.val = a.val; rw [e1]; omega

/-- The node-feature block at point `t`. -/
theorem node_blk (c : Dev nD) (t : Fin cfg0.N) (p : Fin 8000) (a : Fin 128) :
    iblk m c 1 t (ix2 p a) = nodeCols (srcFeat (m ((c : Thread nD τ).loc main_arg0)) (m ((c : Thread nD τ).loc main_arg1))) (tgtFeat (m ((c : Thread nD τ).loc main_arg0)) (m ((c : Thread nD τ).loc main_arg1))) (ix2 (row t p) a) := by
  show V m c main_v19 (((cfg0.win 1).blk t).view.emb (ix2 p a)) = _
  obtain ⟨-, -, e0, e1, -⟩ := idx_facts t
  have he : ((cfg0.win 1).blk t).view.emb (ix2 p a) = ix2 (row t p) a := funext fun ax => Fin.ext (by
    match ax with
    | ⟨0, _⟩ => show win0_1.index t (0 : Fin 2) * 8000 + 1 * p.val = t.val * 8000 + p.val; rw [e0]; omega
    | ⟨1, _⟩ => show win0_1.index t (1 : Fin 2) * 128 + 1 * a.val = a.val; rw [e1]; omega)
  rw [he, nodeCols_apply]
  exact nodes_apply m c (row t p) a

/-- The first layer's weights: the whole array at every point. -/
theorem w1_blk (c : Dev nD) (t : Fin cfg0.N) : (iblk m c 2 t : S160x128.Idx → EReal) = (m ((c : Thread nD τ).loc main_arg3)) := by
  funext i
  show V m c main_arg3 (((cfg0.win 2).blk t).view.emb i) = _
  rw [V_main_arg3]
  obtain ⟨-, -, -, -, e0, e1, -⟩ := idx_facts t
  refine congrArg (m ((c : Thread nD τ).loc main_arg3)) (funext fun ax => Fin.ext ?_)
  match ax with
  | ⟨0, _⟩ => show win0_2.index t (0 : Fin 2) * 160 + 1 * (i 0).val = (i 0).val; rw [e0]; omega
  | ⟨1, _⟩ => show win0_2.index t (1 : Fin 2) * 128 + 1 * (i 1).val = (i 1).val; rw [e1]; omega

/-- The first bias row at every point. -/
theorem bias1_blk (c : Dev nD) (t : Fin cfg0.N) (k : Fin 128) :
    iblk m c 3 t (ix2 (0 : Fin 1) k) = (m ((c : Thread nD τ).loc main_arg4)) (ix1 k) := by
  show V m c main_v20 (((cfg0.win 3).blk t).view.emb (ix2 (0 : Fin 1) k)) = _
  obtain ⟨-, -, -, -, -, -, e0, e1, -⟩ := idx_facts t
  have he : ((cfg0.win 3).blk t).view.emb (ix2 (0 : Fin 1) k) = ix2 (0 : Fin 1) k := funext fun ax => Fin.ext (by
    match ax with
    | ⟨0, _⟩ => show win0_3.index t (0 : Fin 2) * 1 + 1 * 0 = 0; rw [e0]
    | ⟨1, _⟩ => show win0_3.index t (1 : Fin 2) * 128 + 1 * k.val = k.val; rw [e1]; omega)
  rw [he]
  exact bias1_apply m c k

/-- The second layer's weights: the whole array at every point. -/
theorem w2_blk (c : Dev nD) (t : Fin cfg0.N) : (iblk m c 4 t : S128x64.Idx → EReal) = (m ((c : Thread nD τ).loc main_arg5)) := by
  funext i
  show V m c main_arg5 (((cfg0.win 4).blk t).view.emb i) = _
  rw [V_main_arg5]
  obtain ⟨-, -, -, -, -, -, -, -, e0, e1, -⟩ := idx_facts t
  refine congrArg (m ((c : Thread nD τ).loc main_arg5)) (funext fun ax => Fin.ext ?_)
  match ax with
  | ⟨0, _⟩ => show win0_4.index t (0 : Fin 2) * 128 + 1 * (i 0).val = (i 0).val; rw [e0]; omega
  | ⟨1, _⟩ => show win0_4.index t (1 : Fin 2) * 64 + 1 * (i 1).val = (i 1).val; rw [e1]; omega

/-- The second bias row at every point. -/
theorem bias2_blk (c : Dev nD) (t : Fin cfg0.N) (j : Fin 64) :
    iblk m c 5 t (ix2 (0 : Fin 1) j) = (m ((c : Thread nD τ).loc main_arg6)) (ix1 j) := by
  show V m c main_v21 (((cfg0.win 5).blk t).view.emb (ix2 (0 : Fin 1) j)) = _
  obtain ⟨-, -, -, -, -, -, -, -, -, -, e0, e1, -⟩ := idx_facts t
  have he : ((cfg0.win 5).blk t).view.emb (ix2 (0 : Fin 1) j) = ix2 (0 : Fin 1) j := funext fun ax => Fin.ext (by
    match ax with
    | ⟨0, _⟩ => show win0_5.index t (0 : Fin 2) * 1 + 1 * 0 = 0; rw [e0]
    | ⟨1, _⟩ => show win0_5.index t (1 : Fin 2) * 64 + 1 * j.val = j.val; rw [e1]; omega)
  rw [he]
  exact bias2_apply m c j

/-- Where entry `(p, q)` of the result block at point `t` sits in the result array. -/
theorem out_emb (t : Fin cfg0.N) (p : Fin 8000) (q : Fin 64) :
    ((cfg0.win 6).blk t).view.emb (ix2 p q) = ix2 (row t p) q := by
  obtain ⟨-, -, -, -, -, -, -, -, -, -, -, -, e0, e1⟩ := idx_facts t
  exact funext fun ax => Fin.ext (by
    match ax with
    | ⟨0, _⟩ => show win0_6.index t (0 : Fin 2) * 8000 + 1 * p.val = t.val * 8000 + p.val; rw [e0]; omega
    | ⟨1, _⟩ => show win0_6.index t (1 : Fin 2) * 64 + 1 * q.val = q.val; rw [e1]; omega)

/-- What point `t` writes back is block `t` of the perceptron's result. -/
theorem flushed_eq (c : Dev nD) (t : Fin cfg0.N) :
    (dats m 0 c).flushed 6 t = ((cfg0.win 6).blk t).view.read (Elt Ideal) (result m c) := by
  rw [Value.flushed6]
  unfold out0_6
  rw [View.canon_unit_zero origin]
  simp only [View.ld_unit_zero (S := S8000x32) origin, View.ld_unit_zero (S := S8000x128) origin,
    View.ld_unit_zero (S := S160x128) origin, View.ld_unit_zero (S := S1x128) origin,
    View.ld_unit_zero (S := S128x64) origin, View.ld_unit_zero (S := S1x64) origin]
  funext y
  obtain ⟨p, q, rfl⟩ : ∃ (p : Fin 8000) (q : Fin 64), y = ix2 p q := ⟨y 0, y 1, eq_ix2 y⟩
  show k0_pay1 (iblk m c 0 t) (iblk m c 1 t) (iblk m c 2 t) (iblk m c 3 t) (iblk m c 4 t) (iblk m c 5 t) (ix2 p q)
    = result m c (((cfg0.win 6).blk t).view.emb (ix2 p q))
  rw [out_emb t p q]
  refine (Body.pay_apply (iblk m c 0 t) (iblk m c 1 t) (iblk m c 2 t) (iblk m c 3 t) (iblk m c 4 t) (iblk m c 5 t) p q).trans ?_
  exact rowOut_congr (xe := fun a => iblk m c 0 t (ix2 p a)) (xe' := fun a => (m ((c : Thread nD τ).loc main_arg2)) (ix2 (row t p) a))
    (xs := fun a => iblk m c 1 t (ix2 p a)) (xs' := fun a => nodeCols (srcFeat (m ((c : Thread nD τ).loc main_arg0)) (m ((c : Thread nD τ).loc main_arg1))) (tgtFeat (m ((c : Thread nD τ).loc main_arg0)) (m ((c : Thread nD τ).loc main_arg1))) (ix2 (row t p) a))
    (w1 := iblk m c 2 t) (w1' := (m ((c : Thread nD τ).loc main_arg3)))
    (b1 := fun k => iblk m c 3 t (ix2 (0 : Fin 1) k)) (b1' := fun k => (m ((c : Thread nD τ).loc main_arg4)) (ix1 k))
    (w2 := iblk m c 4 t) (w2' := (m ((c : Thread nD τ).loc main_arg5)))
    (b2 := fun j => iblk m c 5 t (ix2 (0 : Fin 1) j)) (b2' := fun j => (m ((c : Thread nD τ).loc main_arg6)) (ix1 j))
    (edge_blk m c t p) (node_blk m c t p) (w1_blk m c t) (bias1_blk m c t) (w2_blk m c t) (bias2_blk m c t) q

/-- An index of the result array is in point `t`'s block iff each coordinate is in the block's range. -/
theorem mem_blk (t : Fin cfg0.N) (i : S800000x64.Idx) :
    i ∈ ((cfg0.win 6).blk t).view.set ↔ ∀ a : Fin 2, win0_6.index t a * S8000x64.size a ≤ (i a).val
      ∧ (i a).val < win0_6.index t a * S8000x64.size a + S8000x64.size a := by
  show i ∈ ((View.whole main_v22).slice (win0_6.rect t)).set ↔ _
  rw [View.set_slice_whole, Rect.mem_set_unit]
  exact Iff.rfl

/-- Every entry of the result array is written by the point whose 8000 rows hold its row. -/
theorem cover (i : S800000x64.Idx) :
    ∃ t : Fin cfg0.N, (cfg0.win 6).flush t = true ∧ i ∈ ((cfg0.win 6).blk t).view.set := by
  have hi0 : (i 0).val < 800000 := idx2_lt0 i
  have hi1 : (i 1).val < 64 := idx2_lt1 i
  have hN : grid0.N = 100 := N_0
  have ht : (i 0).val / 8000 < cfg0.N := by show (i 0).val / 8000 < grid0.N; rw [hN]; omega
  refine ⟨⟨(i 0).val / 8000, ht⟩, flush0_6 _, ?_⟩
  rw [mem_blk]
  obtain ⟨-, -, -, -, -, -, -, -, -, -, -, -, e0, e1⟩ := idx_facts ⟨(i 0).val / 8000, ht⟩
  intro a
  match a with
  | ⟨0, _⟩ =>
    show win0_6.index ⟨(i 0).val / 8000, ht⟩ (0 : Fin 2) * 8000 ≤ (i 0).val
      ∧ (i 0).val < win0_6.index ⟨(i 0).val / 8000, ht⟩ (0 : Fin 2) * 8000 + 8000
    rw [e0]; show (i 0).val / 8000 * 8000 ≤ (i 0).val ∧ (i 0).val < (i 0).val / 8000 * 8000 + 8000; omega
  | ⟨1, _⟩ =>
    show win0_6.index ⟨(i 0).val / 8000, ht⟩ (1 : Fin 2) * 64 ≤ (i 1).val
      ∧ (i 1).val < win0_6.index ⟨(i 0).val / 8000, ht⟩ (1 : Fin 2) * 64 + 64
    rw [e1]; omega

/-- The result array after the run. -/
theorem final (c : Dev nD) : (dats m 0 c).arrAt 6 cfg0.N = result m c :=
  (dats m 0 c).arrAt_eq_of_cover 6 (result m c) (fun t _ => flushed_eq m c t) cover

/-- The kernel's run: the result array ends as the edge perceptron of the arguments, the arguments unchanged. -/
theorem run : θ_run defs (onTc (τ := τ) (main (F := Ideal))) ⟨m, fun _ => 0, ρ⟩ fun r => ∀ c : Dev nD,
      r.2.mem ((c : Thread nD τ).loc main_v22) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final m c), (h c).2⟩) (Value.run_blocks m ρ)

end Cert.KernelIdeal.WholeValue
-- ==== Proof.RefIsMlp.lean ====
/-
  The reference computes the edge perceptron.

  The reference lays the edge features and the gathered source and target features side by side into one matrix
  `x : [800000, 160]`, multiplies by `w1`, adds `b1`, takes the maximum with zero, multiplies by `w2` and adds `b2`.
  Entry by entry: column `a < 32` of `x` is the edge's feature `a`, column `32 + a` is feature `a` of the two nodes
  (source for `a < 64`, target after), so the sum over the 160 columns is the edge part plus the node part
  (`EdgeMlp.sum_cols`), and the result is `EdgeMlp.edgeMlp` of the argument arrays and the two gathered arrays.
-/
import proofs.«147328_j29085518529107_2_alg».proof.Proof.Gen.ReferenceIdeal.Read
import proofs.«147328_j29085518529107_2_alg».proof.Proof.EdgeMlp
import proofs.«147328_j29085518529107_2_alg».proof.Proof.LibConcatCols
open scoped BigOperators
noncomputable section
namespace Cert.ReferenceIdeal.RefValue
open Cert.ReferenceIdeal Cert.ReferenceIdeal.Read Idealize.ShloMosaic Idealize.ShloMosaic.ValueIdx Cert.EdgeMlp

variable (x0 : (⟨S2x800000, .i32⟩ : BufTy).Contents (Elt Ideal)) (x1 : (⟨S50000x64, .f32⟩ : BufTy).Contents (Elt Ideal))
  (x2 : (⟨S800000x32, .f32⟩ : BufTy).Contents (Elt Ideal)) (x3 : (⟨S160x128, .f32⟩ : BufTy).Contents (Elt Ideal))
  (x4 : (⟨S128, .f32⟩ : BufTy).Contents (Elt Ideal)) (x5 : (⟨S128x64, .f32⟩ : BufTy).Contents (Elt Ideal))
  (x6 : (⟨S64, .f32⟩ : BufTy).Contents (Elt Ideal))

/-- Column `a < 32` of the joined matrix is the edge's own feature `a`. -/
theorem joined_edgeCol (e : Fin 800000) (a : Fin 32) :
    val_main_v18 (F := Ideal) x0 x1 x2 (ix2 e (edgeCol a)) = x2 (ix2 e a) := by
  unfold val_main_v18
  exact Cert.ConcatCols.triple_fst _ _ _ _ e a (edgeCol a) rfl

/-- Column `32 + a` of the joined matrix is feature `a` of the edge's two nodes. -/
theorem joined_nodeCol (e : Fin 800000) (a : Fin 128) :
    val_main_v18 (F := Ideal) x0 x1 x2 (ix2 e (nodeCol a))
      = nodeEntry (val_main_v8 (F := Ideal) x0 x1) (val_main_v17 (F := Ideal) x0 x1) e a := by
  unfold val_main_v18 nodeEntry
  by_cases h : a.val < 64
  · rw [dif_pos h]
    exact Cert.ConcatCols.triple_snd _ _ _ _ e ⟨a.val, h⟩ (nodeCol a) rfl
  · rw [dif_neg h]
    exact Cert.ConcatCols.triple_thd _ _ _ _ e ⟨a.val - 64, by omega⟩ (nodeCol a)
      (by show 32 + a.val = 32 + 64 + (a.val - 64); omega)

/-- The reference's hidden layer is the specification's. -/
theorem hidden_eq (e : Fin 800000) (k : Fin 128) :
    val_main_v23 (F := Ideal) x0 x1 x2 x3 x4 (ix2 e k)
      = hiddenAt x2 (nodeCols (val_main_v8 (F := Ideal) x0 x1) (val_main_v17 (F := Ideal) x0 x1)) x3 x4 e k := by
  have hl : ∀ c : Fin 160, lidx_main_v19 (ix2 e k) c = ix2 e c := fun c =>
    funext fun a => Fin.ext (by match a with | ⟨0, _⟩ => rfl | ⟨1, _⟩ => rfl)
  have hr : ∀ c : Fin 160, ridx_main_v19 (ix2 e k) c = ix2 c k := fun c =>
    funext fun a => Fin.ext (by match a with | ⟨0, _⟩ => rfl | ⟨1, _⟩ => rfl)
  have hb : idx_main_v20 (idx_main_v21 (ix2 e k)) = ix1 k :=
    funext fun a => Fin.ext (by match a with | ⟨0, _⟩ => rfl)
  rw [val_main_v23_apply, val_main_v22_apply, val_main_v19_apply, val_main_v21_apply, val_main_v20_apply,
    val_main_call0_v0_apply, val_main_call0_cst_apply, hb]
  simp only [hl, hr, Ideal.maximumf_def, Ideal.addf_def, Ideal.ofBits_def]
  rw [hiddenAt_eq, sum_cols]
  simp only [joined_edgeCol, joined_nodeCol, nodeCols_apply]

/-- The reference's result is the edge perceptron of its arguments and its two gathered arrays. -/
theorem result_eq :
    val_main_v27 (F := Ideal) x0 x1 x2 x3 x4 x5 x6
      = edgeMlp x2 (val_main_v8 (F := Ideal) x0 x1) (val_main_v17 (F := Ideal) x0 x1) x3 x4 x5 x6 := by
  funext i
  obtain ⟨e, j, rfl⟩ : ∃ (e : Fin 800000) (j : Fin 64), i = ix2 e j := ⟨i 0, i 1, eq_ix2 i⟩
  have hl : ∀ c : Fin 128, lidx_main_v24 (ix2 e j) c = ix2 e c := fun c =>
    funext fun a => Fin.ext (by match a with | ⟨0, _⟩ => rfl | ⟨1, _⟩ => rfl)
  have hr : ∀ c : Fin 128, ridx_main_v24 (ix2 e j) c = ix2 c j := fun c =>
    funext fun a => Fin.ext (by match a with | ⟨0, _⟩ => rfl | ⟨1, _⟩ => rfl)
  have hb : idx_main_v25 (idx_main_v26 (ix2 e j)) = ix1 j :=
    funext fun a => Fin.ext (by match a with | ⟨0, _⟩ => rfl)
  rw [edgeMlp_apply, outAt_eq, val_main_v27_apply, val_main_v24_apply, val_main_v26_apply, val_main_v25_apply, hb]
  simp only [hl, hr, hidden_eq, Ideal.addf_def]

end Cert.ReferenceIdeal.RefValue
-- ==== Proof.SharedGather.lean ====
/-
  The two programs gather the same rows.

  The kernel's host prefix and the reference compute the source and target index of every edge by the same operations
  on the edge list and gather from the same node table with the same dimension numbers; the two texts differ only in
  the names the two programs give to their shapes and records. So the gathered arrays are equal, whatever they hold.
-/
import proofs.«147328_j29085518529107_2_alg».proof.Proof.HostPrefix
import proofs.«147328_j29085518529107_2_alg».proof.Proof.Gen.ReferenceIdeal.Read
noncomputable section
namespace Cert.SharedGather
open Idealize.ShloMosaic

theorem src_eq (x0 : (⟨Cert.KernelIdeal.S2x800000, .i32⟩ : BufTy).Contents (Elt Ideal))
    (x1 : (⟨Cert.KernelIdeal.S50000x64, .f32⟩ : BufTy).Contents (Elt Ideal)) :
    Cert.KernelIdeal.HostPrefix.srcFeat x0 x1 = Cert.ReferenceIdeal.Read.val_main_v8 (F := Ideal) x0 x1 := rfl

theorem tgt_eq (x0 : (⟨Cert.KernelIdeal.S2x800000, .i32⟩ : BufTy).Contents (Elt Ideal))
    (x1 : (⟨Cert.KernelIdeal.S50000x64, .f32⟩ : BufTy).Contents (Elt Ideal)) :
    Cert.KernelIdeal.HostPrefix.tgtFeat x0 x1 = Cert.ReferenceIdeal.Read.val_main_v17 (F := Ideal) x0 x1 := rfl

end Cert.SharedGather
-- ==== Proof.lean ====
/-
  A two-layer perceptron on the edges of a graph: the tiled kernel against the plain reference.

  Every one of the 800000 edges has 32 features of its own; its source and target nodes have 64 features each, looked up
  in a table of 50000 nodes by the two rows of the edge list. The reference lays the three pieces side by side into 160
  input columns and computes `max (x · w1 + b1) 0 · w2 + b2`. The kernel looks the node features up in the same way
  on the host, lays the source's and the target's side by side, and hands blocks of 8000 edges to a body that multiplies
  the edge's own features by the first 32 rows of `w1` and the nodes' features by the other 128 rows, adds the two
  products and the bias, takes the maximum with zero, and applies the second layer.

  At the ideal values (extended reals, exact operations, changes of format the identity) both are one function of the
  argument arrays, `EdgeMlp.edgeMlp`: the only difference is that the sum over the 160 input columns is taken in two
  parts, which regroups an addition and needs no finiteness. The reference's side is `RefValue.result_eq`, the kernel's
  `WholeValue.run` (the body's value entry by entry, then the blocks assembled into the array); the two programs' gathers
  are the same terms (`SharedGather`). The three programs' runs themselves (termination, no fault, arguments unchanged)
  are the generated frames; the idealization rewrote nothing, so there is nothing to preserve.
-/
import proofs.«147328_j29085518529107_2_alg».proof.Defs
import proofs.«147328_j29085518529107_2_alg».proof.Proof.Gen.Kernel
import proofs.«147328_j29085518529107_2_alg».proof.Proof.Gen.Kernel.Skeleton
import proofs.«147328_j29085518529107_2_alg».proof.Proof.Gen.Kernel.Launch
import proofs.«147328_j29085518529107_2_alg».proof.Proof.Gen.Kernel.Points
import proofs.«147328_j29085518529107_2_alg».proof.Proof.Gen.Kernel.Frame
import proofs.«147328_j29085518529107_2_alg».proof.Proof.Gen.KernelIdeal
import proofs.«147328_j29085518529107_2_alg».proof.Proof.Gen.KernelIdeal.Skeleton
import proofs.«147328_j29085518529107_2_alg».proof.Proof.Gen.KernelIdeal.Launch
import proofs.«147328_j29085518529107_2_alg».proof.Proof.Gen.KernelIdeal.Points
import proofs.«147328_j29085518529107_2_alg».proof.Proof.Gen.KernelIdeal.Frame
import proofs.«147328_j29085518529107_2_alg».proof.Proof.Gen.ReferenceIdeal
import proofs.«147328_j29085518529107_2_alg».proof.Proof.Gen.KernelIdeal.Value
import proofs.«147328_j29085518529107_2_alg».proof.Proof.Gen.ReferenceIdeal.Run
import proofs.«147328_j29085518529107_2_alg».proof.Proof.Gen.ReferenceIdeal.Read
import proofs.«147328_j29085518529107_2_alg».proof.Proof.Gen.Pre_finite_inputs
import proofs.«147328_j29085518529107_2_alg».proof.Proof.KernelIsMlp
import proofs.«147328_j29085518529107_2_alg».proof.Proof.RefIsMlp
import proofs.«147328_j29085518529107_2_alg».proof.Proof.SharedGather
import Idealize.ShloMosaic.Adequacy
import Idealize.ShloMosaic.Init

noncomputable section

namespace Cert.Proof

open Idealize.ShloMosaic Idealize.SL.Sem

/-- The kernel as printed runs and leaves its arguments as they were. -/
theorem frame_kernel : Cert.frame_Kernel := fun m ρ _ => Cert.Kernel.Gen.frame m ρ

/-- So does the kernel read at the ideal values. -/
theorem frame_kernelIdeal : Cert.frame_KernelIdeal := fun m ρ _ => Cert.KernelIdeal.Gen.frame m ρ

/-- The reference is a straight line of host operations: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From arguments that agree, the kernel's result array and the reference's are the same function of them. -/
theorem algebraic : Cert.algebraic_KernelIdeal_ReferenceIdeal := by
  intro m ρ m' ρ' _ hagree
  refine ⟨fun c => Cert.KernelIdeal.WholeValue.result m c, Cert.KernelIdeal.WholeValue.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6⟩ := hagree c
  rw [Cert.ReferenceIdeal.Read.val_main_v27_eq, Cert.ReferenceIdeal.RefValue.result_eq, a0, a1, a2, a3, a4, a5, a6,
    ← Cert.SharedGather.src_eq, ← Cert.SharedGather.tgt_eq]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
